-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8x1024 : Shape := ⟨3, ![4096, 8, 1024]⟩
abbrev S4096x8x9 : Shape := ⟨3, ![4096, 8, 9]⟩
abbrev S9x1024 : Shape := ⟨2, ![9, 1024]⟩
abbrev S_ : Shape := ⟨0, ![]⟩

class Facts : Prop where
  bcast_S_S4096x8x1024 : S_.BroadcastsInDim S4096x8x1024 (![] : Fin 0 → Fin S4096x8x1024.rank)
  reducesTo_S4096x8x1024_S_d0_1_2 : S4096x8x1024.ReducesTo [0, 1, 2] S_
  h_S_ : 0 < S_.numel
  bcast_S_S4096x8x9 : S_.BroadcastsInDim S4096x8x9 (![] : Fin 0 → Fin S4096x8x9.rank)
  reducesTo_S4096x8x9_S_d0_1_2 : S4096x8x9.ReducesTo [0, 1, 2] S_
  bcast_S_S9x1024 : S_.BroadcastsInDim S9x1024 (![] : Fin 0 → Fin S9x1024.rank)
  reducesTo_S9x1024_S_d0_1 : S9x1024.ReducesTo [0, 1] S_

variable [Facts]

def fn {F : FTy → Type} [FloatOps F] (main_arg0 : FVec F S4096x8x1024 .f32) (main_arg1 : FVec F S4096x8x9 .f32) (main_arg2 : FVec F S9x1024 .f32) : IVec S_ 1 :=
  let main_v0 : FVec F S4096x8x1024 .f32 := Host.absf main_arg0
  let main_cst : FVec F S_ .f32 := constant S_ .f32 0x7F800000#32
  let main_v1 : FVec F S4096x8x1024 .f32 := broadcastInDim S4096x8x1024 ![] bcast_S_S4096x8x1024 main_cst
  let main_v2 : IVec S4096x8x1024 1 := cmpf .olt main_v0 main_v1
  let main_c : IVec S_ 1 := constantI S_ 1 1#1
  let main_v3 : IVec S_ 1 := (fun x v => Host.reduce IntOp.andi x v reducesTo_S4096x8x1024_S_d0_1_2 h_S_) main_v2 main_c
  let main_v4 : FVec F S4096x8x9 .f32 := Host.absf main_arg1
  let main_cst_0 : FVec F S_ .f32 := constant S_ .f32 0x7F800000#32
  let main_v5 : FVec F S4096x8x9 .f32 := broadcastInDim S4096x8x9 ![] bcast_S_S4096x8x9 main_cst_0
  let main_v6 : IVec S4096x8x9 1 := cmpf .olt main_v4 main_v5
  let main_c_1 : IVec S_ 1 := constantI S_ 1 1#1
  let main_v7 : IVec S_ 1 := (fun x v => Host.reduce IntOp.andi x v reducesTo_S4096x8x9_S_d0_1_2 h_S_) main_v6 main_c_1
  let main_v8 : IVec S_ 1 := andi main_v3 main_v7
  let main_v9 : FVec F S9x1024 .f32 := Host.absf main_arg2
  let main_cst_2 : FVec F S_ .f32 := constant S_ .f32 0x7F800000#32
  let main_v10 : FVec F S9x1024 .f32 := broadcastInDim S9x1024 ![] bcast_S_S9x1024 main_cst_2
  let main_v11 : IVec S9x1024 1 := cmpf .olt main_v9 main_v10
  let main_c_3 : IVec S_ 1 := constantI S_ 1 1#1
  let main_v12 : IVec S_ 1 := (fun x v => Host.reduce IntOp.andi x v reducesTo_S9x1024_S_d0_1 h_S_) main_v11 main_c_3
  let main_v13 : IVec S_ 1 := andi main_v8 main_v12
  main_v13
-- ==== Kernel.lean ====
abbrev S4096x8x1024 : Shape := ⟨3, ![4096, 8, 1024]⟩
abbrev S4096x8x9 : Shape := ⟨3, ![4096, 8, 9]⟩
abbrev S9x1024 : Shape := ⟨2, ![9, 1024]⟩
abbrev S32768x1024 : Shape := ⟨2, ![32768, 1024]⟩
abbrev S32768x9 : Shape := ⟨2, ![32768, 9]⟩
abbrev S2048x1024 : Shape := ⟨2, ![2048, 1024]⟩
abbrev S2048x9 : Shape := ⟨2, ![2048, 9]⟩
abbrev S512x1024 : Shape := ⟨2, ![512, 1024]⟩
abbrev S512x9 : Shape := ⟨2, ![512, 9]⟩

abbrev nBuf : Space → Nat
  | .hbm => 9
  | .vmem => 7
  | .smem => 0
  | _ => 0

abbrev bufTy : (tb : Table) → Fin (tcTables nBuf tb) → BufTy
  | .hbm, ⟨0, _⟩ => ⟨S4096x8x1024, .f32⟩
  | .hbm, ⟨1, _⟩ => ⟨S4096x8x9, .f32⟩
  | .hbm, ⟨2, _⟩ => ⟨S9x1024, .f32⟩
  | .hbm, ⟨3, _⟩ => ⟨S32768x1024, .f32⟩
  | .hbm, ⟨4, _⟩ => ⟨S32768x9, .f32⟩
  | .hbm, ⟨5, _⟩ => ⟨S32768x9, .bf16⟩
  | .hbm, ⟨6, _⟩ => ⟨S9x1024, .bf16⟩
  | .hbm, ⟨7, _⟩ => ⟨S32768x1024, .f32⟩
  | .hbm, ⟨8, _⟩ => ⟨S4096x8x1024, .f32⟩
  | .local _ .vmem, ⟨0, _⟩ => ⟨S2048x1024, .f32⟩
  | .local _ .vmem, ⟨1, _⟩ => ⟨S2048x1024, .f32⟩
  | .local _ .vmem, ⟨2, _⟩ => ⟨S2048x9, .bf16⟩
  | .local _ .vmem, ⟨3, _⟩ => ⟨S2048x9, .bf16⟩
  | .local _ .vmem, ⟨4, _⟩ => ⟨S9x1024, .bf16⟩
  | .local _ .vmem, ⟨5, _⟩ => ⟨S2048x1024, .f32⟩
  | .local _ .vmem, ⟨6, _⟩ => ⟨S2048x1024, .f32⟩
  | _, _ => ⟨S4096x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c512_i32 : BitVec 32 := 512#32
  let v2 : BitVec 32 := Scalar.muli c0_i32 c512_i32
  v2
def k0_off1 (c0_i32 : BitVec 32) : Fin 2 → Nat :=
  let c512_i32 : BitVec 32 := 512#32
  let v2 : BitVec 32 := Scalar.muli c0_i32 c512_i32
  let v3 : BitVec 32 := v2
  let v4 : Index := Scalar.indexCast v3
  let c0_1 : Index := 0#32
  ![v4.toNat, 0]
def k0_off2 (c0_i32 : BitVec 32) : Fin 2 → Nat :=
  let c512_i32 : BitVec 32 := 512#32
  let v2 : BitVec 32 := Scalar.muli c0_i32 c512_i32
  let v3 : BitVec 32 := v2
  let v7 : Index := Scalar.indexCast v3
  let c0_2 : Index := 0#32
  ![v7.toNat, 0]
def k0_mult2 : BitVec 32 :=
  let c1_i32 : BitVec 32 := 1#32
  let c512_i32_4 : BitVec 32 := 512#32
  let v14 : BitVec 32 := Scalar.muli c1_i32 c512_i32_4
  v14
def k0_mult3 : BitVec 32 :=
  let c2_i32 : BitVec 32 := 2#32
  let c512_i32_9 : BitVec 32 := 512#32
  let v26 : BitVec 32 := Scalar.muli c2_i32 c512_i32_9
  v26
def k0_mult4 : BitVec 32 :=
  let c3_i32 : BitVec 32 := 3#32
  let c512_i32_14 : BitVec 32 := 512#32
  let v38 : BitVec 32 := Scalar.muli c3_i32 c512_i32_14
  v38
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x9 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S9x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4096x8x1024_S32768x1024 : S4096x8x1024.ShapeCasts S32768x1024
  shapeCasts_S4096x8x9_S32768x9 : S4096x8x9.ShapeCasts S32768x9
  bitsLt_bf16_f32 : FTy.bits .bf16 < FTy.bits .f32
  inb_S9x1024_S9x1024_0_0 : ∀ a, (![0, 0] : Fin 2 → Nat) a + S9x1024.size a ≤ S9x1024.size a
  h_S9x1024 : 0 < S9x1024.numel
  shapeCasts_S9x1024_S9x1024 : S9x1024.ShapeCasts S9x1024
  h_S512x1024 : 0 < S512x1024.numel
  shapeCasts_S512x1024_S512x1024 : S512x1024.ShapeCasts S512x1024
  h_S512x9 : 0 < S512x9.numel
  shapeCasts_S512x9_S512x9 : S512x9.ShapeCasts S512x9
  shapeCasts_S32768x1024_S4096x8x1024 : S32768x1024.ShapeCasts S4096x8x1024
  dot_S512x9_S9x1024_S512x1024_1_0_0_1_n_n_wf : DotDims.WF S512x9 S9x1024 S512x1024 [1] [0] [0] [1] [] []
  hrank0 : 0 < grid0.rank
  k0_mult1_dvd : 512 ∣ k0_mult1.toNat
  k0_off1_inb : ∀ (r : Fin 4), ∀ a, (k0_off1 (BitVec.ofNat 32 r.val)) a + S512x1024.size a ≤ S2048x1024.size a
  k0_off2_inb : ∀ (r : Fin 4), ∀ a, (k0_off2 (BitVec.ofNat 32 r.val)) a + S512x9.size a ≤ S2048x9.size a
  k0_mult2_dvd : 512 ∣ k0_mult2.toNat
  k0_mult3_dvd : 512 ∣ k0_mult3.toNat
  k0_mult4_dvd : 512 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x9.size a ≤ S32768x9.size a
  hwx0_1 : ∀ i : grid0.Coords, EltTy.bits .bf16 = 32 ∨ (Rect.block (s := S32768x9) S2048x9.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S9x1024.size a ≤ S9x1024.size a
  hwx0_2 : ∀ i : grid0.Coords, EltTy.bits .bf16 = 32 ∨ (Rect.block (s := S9x1024) S9x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S32768x1024.size a
  hwx0_3 : ∀ i : grid0.Coords, EltTy.bits .f32 = 32 ∨ (Rect.block (s := S32768x1024) S2048x1024.size (cc0_transform_3 i) (hinb0_3 i)).WholeWords (EltTy.packing .f32)

variable [Facts₀]

def dot_S512x9_S9x1024_S512x1024_1_0_0_1_n_n : DotDims S512x9 S9x1024 S512x1024 where
  lhsContracting := [1]
  rhsContracting := [0]
  lhsNonContracting := [0]
  rhsNonContracting := [1]
  lhsBatch := []
  rhsBatch := []
  wf := dot_S512x9_S9x1024_S512x1024_1_0_0_1_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x9.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S9x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where
  halias0_3 : Pipeline.Aliased win0 0 3

variable [Facts]
-- ==== ReferenceIdeal.lean ====
abbrev S4096x8x1024 : Shape := ⟨3, ![4096, 8, 1024]⟩
abbrev S4096x8x9 : Shape := ⟨3, ![4096, 8, 9]⟩
abbrev S9x1024 : Shape := ⟨2, ![9, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x8x1024, .f32⟩
  | .hbm, ⟨1, _⟩ => ⟨S4096x8x9, .f32⟩
  | .hbm, ⟨2, _⟩ => ⟨S9x1024, .f32⟩
  | .hbm, ⟨3, _⟩ => ⟨S4096x8x1024, .f32⟩
  | .hbm, ⟨4, _⟩ => ⟨S4096x8x1024, .f32⟩
  | _, _ => ⟨S4096x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S4096x8x9_S9x1024_S4096x8x1024_2_0_01_1_n_n_wf : DotDims.WF S4096x8x9 S9x1024 S4096x8x1024 [2] [0] [0, 1] [1] [] []

variable [Facts₀]

def dot_S4096x8x9_S9x1024_S4096x8x1024_2_0_01_1_n_n : DotDims S4096x8x9 S9x1024 S4096x8x1024 where
  lhsContracting := [2]
  rhsContracting := [0]
  lhsNonContracting := [0, 1]
  rhsNonContracting := [1]
  lhsBatch := []
  rhsBatch := []
  wf := dot_S4096x8x9_S9x1024_S4096x8x1024_2_0_01_1_n_n_wf

class Facts : Prop extends Facts₀ where

variable [Facts]
-- ==== Proof.Spec.lean ====
/-
  The result both programs compute, as one function of the three argument arrays, index by index over the
  extended reals: entry (s, b, d) is x(s, b, d) plus the sum over the nine phases p of
  phase_one_hot(s, b, p) * emb_table(p, d).

  The kernel works on the same data laid out in two dimensions, the pair (s, b) folded into one row index
  r = 8 s + b; on n rows the same entry is X(r, d) plus the sum over p of P(r, p) * E(p, d). Rows are
  independent, so this function restricted to a range of rows is the same function of the restricted
  operands: that is all the kernel's tiling uses.
-/
import Idealize.ShloMosaic.PureOps.Ideal
import Idealize.ShloMosaic.Lib.ValueIdx

noncomputable section

namespace Cert.PhaseAdd

open Idealize.ShloMosaic Idealize.ShloMosaic.ValueIdx

/-- Entry (s, b, d) of the result: x(s, b, d) + sum over p of phase_one_hot(s, b, p) * emb_table(p, d). -/
def entry3 (x : (⟨3, ![4096, 8, 1024]⟩ : Shape).Idx → EReal) (poh : (⟨3, ![4096, 8, 9]⟩ : Shape).Idx → EReal)
    (emb : (⟨2, ![9, 1024]⟩ : Shape).Idx → EReal) (s : Fin 4096) (b : Fin 8) (d : Fin 1024) : EReal :=
  x (ix3 s b d) + ∑ p : Fin 9, poh (ix3 s b p) * emb (ix2 p d)

/-- The result array. -/
def result3 (x : (⟨3, ![4096, 8, 1024]⟩ : Shape).Idx → EReal) (poh : (⟨3, ![4096, 8, 9]⟩ : Shape).Idx → EReal)
    (emb : (⟨2, ![9, 1024]⟩ : Shape).Idx → EReal) : (⟨3, ![4096, 8, 1024]⟩ : Shape).Idx → EReal :=
  fun i => entry3 x poh emb (i 0) (i 1) (i 2)

theorem result3_ix3 (x : (⟨3, ![4096, 8, 1024]⟩ : Shape).Idx → EReal) (poh : (⟨3, ![4096, 8, 9]⟩ : Shape).Idx → EReal)
    (emb : (⟨2, ![9, 1024]⟩ : Shape).Idx → EReal) (s : Fin 4096) (b : Fin 8) (d : Fin 1024) :
    result3 x poh emb (ix3 s b d) = entry3 x poh emb s b d := rfl

/-- The same entry in the two-dimensional layout, on `n` rows: X(r, d) + sum over p of P(r, p) * E(p, d). -/
def rowEntry (n : Nat) (X : (⟨2, ![n, 1024]⟩ : Shape).Idx → EReal) (P : (⟨2, ![n, 9]⟩ : Shape).Idx → EReal)
    (E : (⟨2, ![9, 1024]⟩ : Shape).Idx → EReal) (r : Fin n) (d : Fin 1024) : EReal :=
  X (ix2 r d) + ∑ p : Fin 9, P (ix2 r p) * E (ix2 p d)

/-- The two-dimensional result on `n` rows. -/
def rows (n : Nat) (X : (⟨2, ![n, 1024]⟩ : Shape).Idx → EReal) (P : (⟨2, ![n, 9]⟩ : Shape).Idx → EReal)
    (E : (⟨2, ![9, 1024]⟩ : Shape).Idx → EReal) : (⟨2, ![n, 1024]⟩ : Shape).Idx → EReal :=
  fun j => rowEntry n X P E (j 0) (j 1)

theorem rows_ix2 (n : Nat) (X : (⟨2, ![n, 1024]⟩ : Shape).Idx → EReal) (P : (⟨2, ![n, 9]⟩ : Shape).Idx → EReal)
    (E : (⟨2, ![9, 1024]⟩ : Shape).Idx → EReal) (r : Fin n) (d : Fin 1024) :
    rows n X P E (ix2 r d) = rowEntry n X P E r d := rfl

/-- Rows are independent: if on row `r'` the operands of an `n'`-row problem are the operands of an `n`-row problem
    on row `r`, the two entries agree. -/
theorem rowEntry_congr {n n' : Nat} {X : (⟨2, ![n, 1024]⟩ : Shape).Idx → EReal} {P : (⟨2, ![n, 9]⟩ : Shape).Idx → EReal}
    {X' : (⟨2, ![n', 1024]⟩ : Shape).Idx → EReal} {P' : (⟨2, ![n', 9]⟩ : Shape).Idx → EReal}
    {E E' : (⟨2, ![9, 1024]⟩ : Shape).Idx → EReal} {r : Fin n} {r' : Fin n'} {d : Fin 1024}
    (hX : X' (ix2 r' d) = X (ix2 r d)) (hP : ∀ p : Fin 9, P' (ix2 r' p) = P (ix2 r p))
    (hE : ∀ p : Fin 9, E' (ix2 p d) = E (ix2 p d)) :
    rowEntry n' X' P' E' r' d = rowEntry n X P E r d := by
  unfold rowEntry
  rw [hX]
  exact congrArg (X (ix2 r d) + ·) (Finset.sum_congr rfl fun p _ => by rw [hP p, hE p])

end Cert.PhaseAdd

end
-- ==== Proof.RefIsSpec.lean ====
/-
  The reference is the specification. Its two host operations are a contraction of phase_one_hot with emb_table over
  the phase axis and an addition of x; read at an index (s, b, d) over the extended reals the contraction is the sum
  over p of phase_one_hot(s, b, p) * emb_table(p, d), so the result is the specification's entry, term for term.
-/
import proofs.«166977_j46651934769191_2_alg».proof.Proof.Gen.ReferenceIdeal.Read
import proofs.«166977_j46651934769191_2_alg».proof.Proof.Spec

noncomputable section

namespace Cert.PhaseAdd.Ref

open Cert.ReferenceIdeal Cert.ReferenceIdeal.Read Idealize.ShloMosaic Idealize.ShloMosaic.ValueIdx Cert.PhaseAdd

/-- The left operand's index of the contraction at result index (s, b, d) and phase p is (s, b, p). -/
theorem lidx_eq (s : Fin 4096) (b : Fin 8) (d : Fin 1024) (p : Fin 9) : lidx_main_v0 (ix3 s b d) p = ix3 s b p :=
  funext fun a => Fin.ext (by match a with | ⟨0, _⟩ => rfl | ⟨1, _⟩ => rfl | ⟨2, _⟩ => rfl)

/-- The right operand's index is (p, d). -/
theorem ridx_eq (s : Fin 4096) (b : Fin 8) (d : Fin 1024) (p : Fin 9) : ridx_main_v0 (ix3 s b d) p = ix2 p d :=
  funext fun a => Fin.ext (by match a with | ⟨0, _⟩ => rfl | ⟨1, _⟩ => rfl)

/-- The reference's result, as a function of its three arguments, is the specification. -/
theorem ref_eq (x0 : FVec Ideal S4096x8x1024 .f32) (x1 : FVec Ideal S4096x8x9 .f32) (x2 : FVec Ideal S9x1024 .f32) :
    val_main_v1 (F := Ideal) x0 x1 x2 = result3 x0 x1 x2 := by
  funext i
  obtain ⟨s, b, d, rfl⟩ : ∃ (s : Fin 4096) (b : Fin 8) (d : Fin 1024), i = ix3 s b d := ⟨i 0, i 1, i 2, eq_ix3 i⟩
  rw [val_main_v1_apply, val_main_v0_apply, result3_ix3]
  unfold entry3
  refine congrArg (x0 (ix3 s b d) + ·) (Finset.sum_congr rfl fun p _ => ?_)
  rw [lidx_eq, ridx_eq]

end Cert.PhaseAdd.Ref

end
-- ==== Proof.KernelChunk.lean ====
/-
  One chunk of the kernel's body, over the extended reals. The body walks its 2048-row block in four chunks of 512
  rows; for each it loads 512 rows of x and of phase_one_hot and the whole 9 x 1024 table, multiplies the
  512 x 9 and 9 x 1024 matrices into a zero accumulator and adds the rows of x. At entry (r, d) of the chunk the
  matrix product into zero is the sum over p of P(r, p) * E(p, d), so the stored value is the two-dimensional
  specification on the chunk's 512 rows.
-/
import proofs.«166977_j46651934769191_2_alg».proof.Proof.Gen.KernelIdeal.Skeleton
import proofs.«166977_j46651934769191_2_alg».proof.Proof.Spec
import Idealize.ShloMosaic.Lib.ValueIdx
import Idealize.ShloMosaic.Lib.Pipeline.Value
import Idealize.ShloMosaic.PureOps.Ideal.Laws

noncomputable section

namespace Cert.PhaseAdd.Chunk

open Cert.KernelIdeal Cert.KernelIdeal.Gen Idealize.ShloMosaic Idealize.ShloMosaic.ValueIdx Cert.PhaseAdd

/-- The dimension numbers of the chunk's matrix product: rows by phases times phases by columns. -/
abbrev D : DotDims S512x9 S9x1024 S512x1024 := dot_S512x9_S9x1024_S512x1024_1_0_0_1_n_n

/-- At result entry `i` and contraction index `q` the left operand is read at row `i 0` … -/
theorem lhs_row (i : S512x1024.Idx) (q : D.contr.Idx) : (D.lhsIdx i q 0).val = (i 0).val := by
  unfold DotDims.lhsIdx
  rw [dif_neg (show ¬(0 : Fin S512x9.rank) ∈ D.lhsBatch by decide), dif_pos (show (0 : Fin S512x9.rank) ∈ D.lhsNonContracting by decide)]
  rfl
/-- … and phase `q`; -/
theorem lhs_phase (i : S512x1024.Idx) (q : D.contr.Idx) : (D.lhsIdx i q 1).val = (q ⟨0, by decide⟩).val :=
  D.lhsIdx_val_of_single rfl i q
/-- the right operand at phase `q` … -/
theorem rhs_phase (i : S512x1024.Idx) (q : D.contr.Idx) : (D.rhsIdx i q 0).val = (q ⟨0, by decide⟩).val :=
  D.rhsIdx_val_of_single rfl i q
/-- … and column `i 1`. -/
theorem rhs_col (i : S512x1024.Idx) (q : D.contr.Idx) : (D.rhsIdx i q 1).val = (i 1).val := by
  unfold DotDims.rhsIdx
  rw [dif_neg (show ¬(1 : Fin S9x1024.rank) ∈ D.rhsBatch by decide), dif_pos (show (1 : Fin S9x1024.rank) ∈ D.rhsNonContracting by decide)]
  rfl

/-- The 512 x 9 by 9 x 1024 product into a zero accumulator, at entry (r, d): the sum over the nine phases. -/
theorem matmul_zero_apply (ps : FVec Ideal S512x9 .bf16) (e : FVec Ideal S9x1024 .bf16) (r : Fin 512) (d : Fin 1024) :
    matmul D none ps e (constant (F := Ideal) S512x1024 .f32 0x00000000#32) (ix2 r d)
      = ∑ p : Fin 9, ps (ix2 r p) * e (ix2 p d) := by
  refine (Ideal.matmul_constant_zero_apply D none ps e (ix2 r d)).trans ?_
  rw [← Equiv.sum_comp (contrEquiv1 D 9 rfl rfl).symm]
  refine Finset.sum_congr rfl fun p _ => ?_
  have hp := contrEquiv1_symm_val D 9 rfl rfl p
  have el : D.lhsIdx (ix2 r d) ((contrEquiv1 D 9 rfl rfl).symm p) = ix2 r p := funext fun a => Fin.ext (by
    match a with
    | ⟨0, _⟩ => exact lhs_row _ _
    | ⟨1, _⟩ => exact (lhs_phase _ _).trans hp)
  have er : D.rhsIdx (ix2 r d) ((contrEquiv1 D 9 rfl rfl).symm p) = ix2 p d := funext fun a => Fin.ext (by
    match a with
    | ⟨0, _⟩ => exact (rhs_phase _ _).trans hp
    | ⟨1, _⟩ => exact rhs_col _ _)
  rw [el, er]

/-- A chunk's stored value: the rows of x plus the product into zero is the specification on those 512 rows. -/
theorem chunk_eq (xs : FVec Ideal S512x1024 .f32) (ps : FVec Ideal S512x9 .bf16) (e : FVec Ideal S9x1024 .bf16) :
    addf xs (matmul D none ps e (constant (F := Ideal) S512x1024 .f32 0x00000000#32))
      = rows 512 xs ps e := by
  funext j
  obtain ⟨r, d, rfl⟩ : ∃ (r : Fin 512) (d : Fin 1024), j = ix2 r d := ⟨j 0, j 1, eq_ix2 j⟩
  rw [rows_ix2, addf_apply, matmul_zero_apply]
  rfl

/-- The first three chunks' stored values (they read the table through its one re-shaping, which changes nothing). -/
theorem pay3_eq (v0 : Vec Ideal S9x1024 .bf16) (v5 : Vec Ideal S512x1024 .f32) (v8 : Vec Ideal S512x9 .bf16) :
    k0_pay3 (F := Ideal) v0 v5 v8 = rows 512 v5 v8 v0 := by
  unfold k0_pay3 k0_pay2
  simp only [shapeCast_self]
  exact chunk_eq v5 v8 v0

theorem pay4_eq (v0 : Vec Ideal S9x1024 .bf16) (v17 : Vec Ideal S512x1024 .f32) (v20 : Vec Ideal S512x9 .bf16) :
    k0_pay4 (F := Ideal) v0 v17 v20 = rows 512 v17 v20 v0 := by
  unfold k0_pay4 k0_pay2
  simp only [shapeCast_self]
  exact chunk_eq v17 v20 v0

theorem pay5_eq (v0 : Vec Ideal S9x1024 .bf16) (v29 : Vec Ideal S512x1024 .f32) (v32 : Vec Ideal S512x9 .bf16) :
    k0_pay5 (F := Ideal) v0 v29 v32 = rows 512 v29 v32 v0 := by
  unfold k0_pay5 k0_pay2
  simp only [shapeCast_self]
  exact chunk_eq v29 v32 v0

/-- The last chunk's stored value, over the table as already re-shaped. -/
theorem pay1_eq (v1 : FVec Ideal S9x1024 .bf16) (v41 : Vec Ideal S512x1024 .f32) (v44 : Vec Ideal S512x9 .bf16) :
    k0_pay1 (F := Ideal) v1 v41 v44 = rows 512 v41 v44 v1 := by
  unfold k0_pay1
  simp only [shapeCast_self]
  exact chunk_eq v41 v44 v1

theorem pay2_eq (v0 : Vec Ideal S9x1024 .bf16) : k0_pay2 (F := Ideal) v0 = v0 := by
  unfold k0_pay2
  exact shapeCast_self _ _

end Cert.PhaseAdd.Chunk

end
-- ==== Proof.KernelBlock.lean ====
/-
  One grid point of the kernel, over the extended reals. The body fills its 2048 x 1024 output block by four stores of
  512 rows each, at row offsets 0, 512, 1024 and 1536; the value stored at offset o is the specification on the 512
  rows of the x block and of the phase_one_hot block read at the same offset, with the whole table. Rows are
  independent, so each stored piece is the corresponding 512 rows of the specification on the whole 2048-row block:
  the four pieces tile the block, and the block the body leaves is the two-dimensional specification of the three
  input blocks.
-/
import proofs.«166977_j46651934769191_2_alg».proof.Proof.Gen.KernelIdeal.Frame
import proofs.«166977_j46651934769191_2_alg».proof.Proof.KernelChunk
import Idealize.ShloMosaic.Lib.Tactic

noncomputable section
namespace Cert.PhaseAdd.Block
open Cert.KernelIdeal Cert.KernelIdeal.Gen Idealize.ShloMosaic Idealize.ShloMosaic.ValueIdx Cert.PhaseAdd Cert.PhaseAdd.Chunk
open Idealize.ShloMosaic.TcCoe Idealize.SL.Sem

theorem hz : (![0, 0] : Fin 2 → Nat) = fun _ => 0 := funext fun a => by fin_cases a <;> rfl

/-- Rows o .. o + 511 of the block: the specification on the 512 rows read at row offset `o` is the block's
    specification at the rows o + r. -/
theorem piece_eq (o : Nat) (ho : o + 512 ≤ 2048)
    (inbX : ∀ a, (![o, 0] : Fin 2 → Nat) a + (![512, 1024] : Fin 2 → Nat) a ≤ S2048x1024.size a)
    (inbP : ∀ a, (![o, 0] : Fin 2 → Nat) a + (![512, 9] : Fin 2 → Nat) a ≤ S2048x9.size a)
    (x0 : Vec Ideal S2048x1024 .f32) (x1 : Vec Ideal S2048x9 .bf16) (x2 : Vec Ideal S9x1024 .bf16)
    (x : S512x1024.Idx) :
    rows 512 (View.ld (Val := Elt Ideal) (e' := .f32) x0 (Rect.unit (s := S2048x1024) ![o, 0] ![512, 1024] inbX))
        (View.ld (Val := Elt Ideal) (e' := .bf16) x1 (Rect.unit (s := S2048x9) ![o, 0] ![512, 9] inbP)) x2 x
      = rows 2048 x0 x1 x2 ((Rect.unit (s := S2048x1024) ![o, 0] ![512, 1024] inbX).emb x) := by
  obtain ⟨r, d, rfl⟩ : ∃ (r : Fin 512) (d : Fin 1024), x = ix2 r d := ⟨x 0, x 1, eq_ix2 x⟩
  have hr : o + r.val < 2048 := by have := r.isLt; omega
  have hX : (Rect.unit (s := S2048x1024) ![o, 0] ![512, 1024] inbX).emb (ix2 r d) = ix2 (⟨o + r.val, hr⟩ : Fin 2048) d :=
    funext fun a => Fin.ext (by
      match a with
      | ⟨0, _⟩ => show o + 1 * r.val = o + r.val; omega
      | ⟨1, _⟩ => show 0 + 1 * d.val = d.val; omega)
  have hP : ∀ p : Fin 9, (Rect.unit (s := S2048x9) ![o, 0] ![512, 9] inbP).emb (ix2 r p) = ix2 (⟨o + r.val, hr⟩ : Fin 2048) p :=
    fun p => funext fun a => Fin.ext (by
      match a with
      | ⟨0, _⟩ => show o + 1 * r.val = o + r.val; omega
      | ⟨1, _⟩ => show 0 + 1 * p.val = p.val; omega)
  rw [hX, rows_ix2, rows_ix2]
  refine rowEntry_congr ?_ (fun p => ?_) (fun p => rfl)
  · show x0 ((Rect.unit (s := S2048x1024) ![o, 0] ![512, 1024] inbX).emb (ix2 r d)) = _
    rw [hX]
  · show x1 ((Rect.unit (s := S2048x9) ![o, 0] ![512, 9] inbP).emb (ix2 r p)) = _
    rw [hP]

theorem block_eq (c : Dev nD) (i : grid0.Coords) (a1 : Memref sig .tc .vmem S2048x1024 .f32) (h1 : a1.IsWhole)
    (a2 : Memref sig .tc .vmem S2048x9 .bf16) (h2 : a2.IsWhole) (a3 : Memref sig .tc .vmem S9x1024 .bf16) (h3 : a3.IsWhole)
    (a4 : Memref sig .tc .vmem S2048x1024 .f32) (h4 : a4.IsWhole)
    (x0 : Vec Ideal S2048x1024 .f32) (x1 : Vec Ideal S2048x9 .bf16) (x2 : Vec Ideal S9x1024 .bf16) :
    out0_A_3 (F := Ideal) c i a1 h1 a2 h2 a3 h3 a4 h4 x0 x1 x2 = rows 2048 x0 x1 x2 := by
  unfold out0_A_3
  rw [View.read_writes_eq_canon _ _ _ (cover0_A_3 c i a1 h1 a2 h2 a3 h3 a4 h4 x0 x1 x2)]
  funext y
  refine View.canon_apply_of_pieces (rows 2048 x0 x1 x2) _ ?_ y (cover0_A_3 c i a1 h1 a2 h2 a3 h3 a4 h4 x0 x1 x2 y)
  unfold kernelRun0_A
  dsimp only
  sl_unfold_words
  simp only [View.readAt_eq_ld, h1.read_unread, h2.read_unread, h3.read_unread, View.ld_unit_zero (S := S9x1024) hz,
    pay1_eq, pay2_eq, pay3_eq, pay4_eq, pay5_eq]
  intro p hp
  rcases List.mem_cons.mp hp with rfl | hp
  · exact piece_eq 1536 (by omega) _ _ x0 x1 x2
  rcases List.mem_cons.mp hp with rfl | hp
  · exact piece_eq 1024 (by omega) _ _ x0 x1 x2
  rcases List.mem_cons.mp hp with rfl | hp
  · exact piece_eq 512 (by omega) _ _ x0 x1 x2
  rcases List.mem_cons.mp hp with rfl | hp
  · exact piece_eq 0 (by omega) _ _ x0 x1 x2
  · exact absurd hp List.not_mem_nil

end Cert.PhaseAdd.Block
end
-- ==== Proof.KernelArray.lean ====
/-
  The kernel's output array after all sixteen grid points, over the extended reals. Point t works on rows
  2048 t .. 2048 t + 2047: its x and phase_one_hot blocks are those rows of the two-dimensional arrays the launch
  finds, its table block is the whole table, and it writes its output block back to the same rows. By the block
  lemma what it writes is the two-dimensional specification of its input blocks; rows are independent, so that is
  rows 2048 t .. 2048 t + 2047 of the specification of the whole arrays. The sixteen blocks cover all 32768 rows
  (row r lies in block r / 2048), so the array ends holding the two-dimensional specification of the arrays as the
  launch finds them.
-/
import proofs.«166977_j46651934769191_2_alg».proof.Proof.Gen.KernelIdeal.Frame
import proofs.«166977_j46651934769191_2_alg».proof.Proof.KernelBlock
import Idealize.ShloMosaic.Lib.Pipeline.Value

noncomputable section

namespace Cert.PhaseAdd.Array

open Cert.KernelIdeal Cert.KernelIdeal.Gen Idealize.ShloMosaic Idealize.ShloMosaic.ValueIdx Cert.PhaseAdd Cert.PhaseAdd.Block
open Idealize.ShloMosaic.TcCoe Idealize.SL.Sem
open Idealize.ShloMosaic.Pipeline (Dat)

variable (m : (ℓ : Loc nD τ sig) → Buf (Elt Ideal) ℓ)

/-- The two-dimensional specification of the three arrays the launch finds: x as rows, phase_one_hot as rows, the table. -/
abbrev rowsV (c : Dev nD) : S32768x1024.Idx → EReal := rows 32768 (V m c main_v0) (V m c main_v2) (V m c main_v3)

/-- The block index of each operand at point t: the x, phase_one_hot and output blocks are block t along the rows,
    the table's block never moves. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem row_lt (t : Fin cfg0.N) (r : Fin 2048) : 2048 * t.val + r.val < 32768 := by
  have hN : cfg0.N = 16 := N_0
  have := t.isLt; have := r.isLt; omega

/-- The x block at point t, at (r, d): the row array at row 2048 t + r. -/
theorem xblk_apply (c : Dev nD) (t : Fin cfg0.N) (r : Fin 2048) (d : Fin 1024) :
    (iblk m c 0 t : Vec Ideal S2048x1024 .f32) (ix2 r d) = V m c main_v0 (ix2 (⟨2048 * t.val + r.val, row_lt t r⟩ : Fin 32768) d) := by
  unfold iblk
  rw [View.read_apply]
  show V m c main_v0 (((cfg0.win 0).blk t).view.emb (ix2 r d)) = _
  refine congrArg (V m c main_v0) (funext fun a => Fin.ext ?_)
  obtain ⟨e0, e1, -⟩ := idx_facts t
  match a with
  | ⟨0, _⟩ => show win0_0.index t (0 : Fin 2) * 2048 + 1 * r.val = 2048 * t.val + r.val; rw [e0]; omega
  | ⟨1, _⟩ => show win0_0.index t (1 : Fin 2) * 1024 + 1 * d.val = d.val; rw [e1]; omega

/-- The phase_one_hot block at point t, at (r, p): the row array at row 2048 t + r. -/
theorem pblk_apply (c : Dev nD) (t : Fin cfg0.N) (r : Fin 2048) (p : Fin 9) :
    (iblk m c 1 t : Vec Ideal S2048x9 .bf16) (ix2 r p) = V m c main_v2 (ix2 (⟨2048 * t.val + r.val, row_lt t r⟩ : Fin 32768) p) := by
  unfold iblk
  rw [View.read_apply]
  show V m c main_v2 (((cfg0.win 1).blk t).view.emb (ix2 r p)) = _
  refine congrArg (V m c main_v2) (funext fun a => Fin.ext ?_)
  obtain ⟨-, -, e0, e1, -⟩ := idx_facts t
  match a with
  | ⟨0, _⟩ => show win0_1.index t (0 : Fin 2) * 2048 + 1 * r.val = 2048 * t.val + r.val; rw [e0]; omega
  | ⟨1, _⟩ => show win0_1.index t (1 : Fin 2) * 9 + 1 * p.val = p.val; rw [e1]; omega

/-- The table block at any point is the table. -/
theorem eblk_apply (c : Dev nD) (t : Fin cfg0.N) (p : Fin 9) (d : Fin 1024) :
    (iblk m c 2 t : Vec Ideal S9x1024 .bf16) (ix2 p d) = V m c main_v3 (ix2 p d) := by
  unfold iblk
  rw [View.read_apply]
  show V m c main_v3 (((cfg0.win 2).blk t).view.emb (ix2 p d)) = _
  refine congrArg (V m c main_v3) (funext fun a => Fin.ext ?_)
  obtain ⟨-, -, -, -, e0, e1, -⟩ := idx_facts t
  match a with
  | ⟨0, _⟩ => show win0_2.index t (0 : Fin 2) * 9 + 1 * p.val = p.val; rw [e0]; omega
  | ⟨1, _⟩ => show win0_2.index t (1 : Fin 2) * 1024 + 1 * d.val = d.val; rw [e1]; omega

/-- What the body leaves in the output's staging buffer at point t: the specification of the point's input blocks. -/
theorem outsAt_eq (c : Dev nD) (t : Fin cfg0.N) :
    outsAt0 m c t = rows 2048 (iblk m c 0 t) (iblk m c 1 t) (iblk m c 2 t) := by
  unfold outsAt0
  exact block_eq c (grid0.coords t) (ms0_0 t) (hs0_0 t) (ms0_1 t) (hs0_1 t) (ms0_2 t) (hs0_2 t) (ms0_3 t) (hs0_3 t)
    (iblk m c 0 t) (iblk m c 1 t) (iblk m c 2 t)

/-- Entry (r, d) of the output block at point t sits at row 2048 t + r of the array. -/
theorem oblk_emb (t : Fin cfg0.N) (r : Fin 2048) (d : Fin 1024) :
    ((cfg0.win 3).blk t).view.emb (ix2 r d) = ix2 (⟨2048 * t.val + r.val, row_lt t r⟩ : Fin 32768) d := by
  refine funext fun a => Fin.ext ?_
  obtain ⟨-, -, -, -, -, -, e0, e1⟩ := idx_facts t
  match a with
  | ⟨0, _⟩ => show win0_3.index t (0 : Fin 2) * 2048 + 1 * r.val = 2048 * t.val + r.val; rw [e0]; omega
  | ⟨1, _⟩ => show win0_3.index t (1 : Fin 2) * 1024 + 1 * d.val = d.val; rw [e1]; omega

/-- What point t writes back is block t of the specification of the whole arrays. -/
theorem flushed_eq (c : Dev nD) (t : Fin cfg0.N) :
    (dats m 0 c).flushed 3 t = ((cfg0.win 3).blk t).view.read (Elt Ideal) (rowsV m c) := by
  show (cfg0.win 3).cut (grid0.coords t) ((dats m 0 c).after 3 t) = _
  rw [after0_3, outsAt_eq]
  funext y
  obtain ⟨r, d, rfl⟩ : ∃ (r : Fin 2048) (d : Fin 1024), y = ix2 r d := ⟨y 0, y 1, eq_ix2 y⟩
  rw [View.read_apply]
  show rows 2048 (iblk m c 0 t) (iblk m c 1 t) (iblk m c 2 t) (ix2 r d) = rowsV m c (((cfg0.win 3).blk t).view.emb (ix2 r d))
  rw [oblk_emb t r d]
  show rows 2048 (iblk m c 0 t) (iblk m c 1 t) (iblk m c 2 t) (ix2 r d)
    = rows 32768 (V m c main_v0) (V m c main_v2) (V m c main_v3) (ix2 (⟨2048 * t.val + r.val, row_lt t r⟩ : Fin 32768) d)
  rw [rows_ix2, rows_ix2]
  exact rowEntry_congr (xblk_apply m c t r d) (fun p => pblk_apply m c t r p) (fun p => eblk_apply m c t p d)

/-- An index of the array is in point t's block iff each coordinate is in the block's range on its axis. -/
theorem mem_blk (t : Fin cfg0.N) (i : S32768x1024.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v4).slice (win0_3.rect t)).set ↔ _
  rw [View.set_slice_whole, Rect.mem_set_unit]
  exact Iff.rfl

/-- Every index of the array is in the block of the point r / 2048, which writes its block back. -/
theorem cover (i : S32768x1024.Idx) : ∃ t : Fin cfg0.N, (cfg0.win 3).flush t = true ∧ i ∈ ((cfg0.win 3).blk t).view.set := by
  have hN : cfg0.N = 16 := N_0
  have hi0 : (i 0).val < 32768 := (i 0).isLt
  have hi1 : (i 1).val < 1024 := (i 1).isLt
  have ht : (i 0).val / 2048 < cfg0.N := by omega
  refine ⟨⟨(i 0).val / 2048, ht⟩, flush0_3 _, ?_⟩
  rw [mem_blk]
  obtain ⟨-, -, -, -, -, -, e0, e1⟩ := idx_facts ⟨(i 0).val / 2048, ht⟩
  have e0' : win0_3.index ⟨(i 0).val / 2048, ht⟩ (0 : Fin 2) = (i 0).val / 2048 := e0
  intro a
  match a with
  | ⟨0, _⟩ =>
    show win0_3.index ⟨(i 0).val / 2048, ht⟩ (0 : Fin 2) * 2048 ≤ (i 0).val
      ∧ (i 0).val < win0_3.index ⟨(i 0).val / 2048, ht⟩ (0 : Fin 2) * 2048 + 2048
    rw [e0']; omega
  | ⟨1, _⟩ =>
    show win0_3.index ⟨(i 0).val / 2048, ht⟩ (1 : Fin 2) * 1024 ≤ (i 1).val
      ∧ (i 1).val < win0_3.index ⟨(i 0).val / 2048, ht⟩ (1 : Fin 2) * 1024 + 1024
    rw [e1]; omega

/-- The output array after the run is the two-dimensional specification of the arrays the launch finds. -/
theorem final (c : Dev nD) : (dats m 0 c).arrAt 3 cfg0.N = rowsV m c :=
  (dats m 0 c).arrAt_eq_of_cover 3 (rowsV m c) (fun t _ => flushed_eq m c t) cover

end Cert.PhaseAdd.Array

end
-- ==== Proof.Layout.lean ====
/-
  The two layouts of the same data. The kernel's program reshapes x from 4096 x 8 x 1024 to 32768 x 1024 and
  phase_one_hot from 4096 x 8 x 9 to 32768 x 9, computes on rows, and reshapes the result back. A reshape keeps the
  row-major position, so row r = 8 s + b of the two-dimensional array is entry (s, b) of the three-dimensional one, for
  every column. Hence the two-dimensional specification of the reshaped operands, reshaped back, is the
  three-dimensional specification: entry (s, b, d) reads x(s, b, d) and the same nine products.
-/
import Idealize.ShloMosaic.Lib.Pipeline.Value
import Idealize.ShloMosaic.Lib.ValueIdx
import proofs.«166977_j46651934769191_2_alg».proof.Proof.Spec

noncomputable section

namespace Cert.PhaseAdd.Layout

open Idealize.ShloMosaic Idealize.ShloMosaic.ValueIdx Cert.PhaseAdd

abbrev X3 : Shape := ⟨3, ![4096, 8, 1024]⟩
abbrev P3 : Shape := ⟨3, ![4096, 8, 9]⟩
abbrev X2 : Shape := ⟨2, ![32768, 1024]⟩
abbrev P2 : Shape := ⟨2, ![32768, 9]⟩
abbrev E2 : Shape := ⟨2, ![9, 1024]⟩

/-- The row of the pair (s, b). -/
theorem row_lt (s : Fin 4096) (b : Fin 8) : 8 * s.val + b.val < 32768 := by
  have := s.isLt; have := b.isLt; omega

/-- x reshaped to rows, at row 8 s + b and column d, is x(s, b, d). -/
theorem fold_x (x : X3.Idx → EReal) (h : X3.ShapeCasts X2) (s : Fin 4096) (b : Fin 8) (d : Fin 1024) :
    shapeCast X2 x h (ix2 (⟨8 * s.val + b.val, row_lt s b⟩ : Fin 32768) d) = x (ix3 s b d) :=
  shapeCast_apply x h _ _ (by
    rw [Shape.rowMajor_val_three, Shape.rowMajor_val_two]
    show (s.val * 8 + b.val) * 1024 + d.val = (8 * s.val + b.val) * 1024 + d.val
    omega)

/-- phase_one_hot reshaped to rows, at row 8 s + b and phase p, is phase_one_hot(s, b, p). -/
theorem fold_p (poh : P3.Idx → EReal) (h : P3.ShapeCasts P2) (s : Fin 4096) (b : Fin 8) (p : Fin 9) :
    shapeCast P2 poh h (ix2 (⟨8 * s.val + b.val, row_lt s b⟩ : Fin 32768) p) = poh (ix3 s b p) :=
  shapeCast_apply poh h _ _ (by
    rw [Shape.rowMajor_val_three, Shape.rowMajor_val_two]
    show (s.val * 8 + b.val) * 9 + p.val = (8 * s.val + b.val) * 9 + p.val
    omega)

/-- A row array reshaped to 4096 x 8 x 1024, at (s, b, d), is its entry at row 8 s + b and column d. -/
theorem unfold_y (y : X2.Idx → EReal) (h : X2.ShapeCasts X3) (s : Fin 4096) (b : Fin 8) (d : Fin 1024) :
    shapeCast X3 y h (ix3 s b d) = y (ix2 (⟨8 * s.val + b.val, row_lt s b⟩ : Fin 32768) d) :=
  shapeCast_apply y h _ _ (by
    rw [Shape.rowMajor_val_three, Shape.rowMajor_val_two]
    show (8 * s.val + b.val) * 1024 + d.val = (s.val * 8 + b.val) * 1024 + d.val
    omega)

/-- The row specification of the reshaped operands, reshaped back, is the three-dimensional specification. -/
theorem rows_reshaped (x : X3.Idx → EReal) (poh : P3.Idx → EReal) (emb : E2.Idx → EReal)
    (hx : X3.ShapeCasts X2) (hp : P3.ShapeCasts P2) (hy : X2.ShapeCasts X3) :
    shapeCast X3 (rows 32768 (shapeCast X2 x hx) (shapeCast P2 poh hp) emb) hy = result3 x poh emb := by
  funext i
  obtain ⟨s, b, d, rfl⟩ : ∃ (s : Fin 4096) (b : Fin 8) (d : Fin 1024), i = ix3 s b d := ⟨i 0, i 1, i 2, eq_ix3 i⟩
  refine (unfold_y _ hy s b d).trans ?_
  rw [rows_ix2, result3_ix3]
  unfold rowEntry entry3
  rw [fold_x x hx s b d]
  exact congrArg (x (ix3 s b d) + ·) (Finset.sum_congr rfl fun p _ => by rw [fold_p poh hp s b p])

end Cert.PhaseAdd.Layout

end
-- ==== Proof.KernelResult.lean ====
/-
  The kernel's program, end to end, over the extended reals. Before the launch it reshapes x and phase_one_hot to rows
  and narrows phase_one_hot and the table to a shorter float format, which over the extended reals changes nothing;
  the launch leaves the two-dimensional specification of those arrays in its output; after the launch the program
  reshapes that output back to 4096 x 8 x 1024. So the program's result is the three-dimensional specification of its
  three arguments, and its arguments end as they began.
-/
import proofs.«166977_j46651934769191_2_alg».proof.Proof.KernelArray
import proofs.«166977_j46651934769191_2_alg».proof.Proof.Layout
import Idealize.ShloMosaic.Lib.StableHlo.Run

noncomputable section

namespace Cert.PhaseAdd.Result

open Cert.KernelIdeal Cert.KernelIdeal.Gen Idealize.ShloMosaic Idealize.ShloMosaic.ValueIdx Cert.PhaseAdd
open Idealize.ShloMosaic.TcCoe Idealize.SL.Sem
open Idealize.ShloMosaic.Pipeline (Dat)

variable (m : (ℓ : Loc nD τ sig) → Buf (Elt Ideal) ℓ) (ρ : Dev nD → PrngReg)

/-- The launch finds x reshaped to rows, -/
theorem V_x (c : Dev nD) : (V m c main_v0 : S32768x1024.Idx → EReal)
    = shapeCast S32768x1024 (m ((c : Thread nD τ).loc main_arg0)) Facts₀.shapeCasts_S4096x8x1024_S32768x1024 := by
  show StableHlo.after hostOps0 (fun b => m (c, b)) (Proc.devRef .tc main_v0) = _
  after_results
  rfl

/-- phase_one_hot reshaped to rows (its narrowing is the identity on extended reals), -/
theorem V_p (c : Dev nD) : (V m c main_v2 : S32768x9.Idx → EReal)
    = shapeCast S32768x9 (m ((c : Thread nD τ).loc main_arg1)) Facts₀.shapeCasts_S4096x8x9_S32768x9 := by
  show StableHlo.after hostOps0 (fun b => m (c, b)) (Proc.devRef .tc main_v2) = _
  after_results
  rfl

/-- and the table (narrowed likewise). -/
theorem V_e (c : Dev nD) : (V m c main_v3 : S9x1024.Idx → EReal) = m ((c : Thread nD τ).loc main_arg2) := by
  show StableHlo.after hostOps0 (fun b => m (c, b)) (Proc.devRef .tc main_v3) = _
  after_results
  rfl

/-- The program's result is the launch's output array reshaped back. -/
theorem tail_eq (c : Dev nD) :
    Pipeline.afterTail₀ cfgs (dats m) 0 (V0 m) [hostOps1] c main_v5
      = shapeCast S4096x8x1024 ((dats m 0 c).arrAt 3 cfg0.N) Facts₀.shapeCasts_S32768x1024_S4096x8x1024 := by
  unfold Pipeline.afterTail₀
  show StableHlo.after hostOps1 _ (Proc.devRef .tc main_v5) = _
  after_results
  rw [show Pipeline.withArrays (cfgs 0).spec c (V0 m c) (fun w => (dats m 0 c).arrAt w (cfgs 0).N) (Proc.devRef .tc main_v4)
      = (dats m 0 c).arrAt 3 (cfgs 0).N from
    Pipeline.withArrays_arr (cfgs 0).spec launch0.win.arr_inj c (V0 m c) (fun w => (dats m 0 c).arrAt w (cfgs 0).N) 3]
  rfl

/-- The program's result is the specification of its three arguments. -/
theorem result_eq (c : Dev nD) :
    Pipeline.afterTail₀ cfgs (dats m) 0 (V0 m) [hostOps1] c main_v5
      = result3 (m ((c : Thread nD τ).loc main_arg0)) (m ((c : Thread nD τ).loc main_arg1)) (m ((c : Thread nD τ).loc main_arg2)) := by
  rw [tail_eq, Array.final]
  show shapeCast S4096x8x1024 (rows 32768 (V m c main_v0) (V m c main_v2) (V m c main_v3)) _ = _
  rw [V_x, V_p, V_e]
  exact Layout.rows_reshaped _ _ _ _ _ _

/-- Every weakly fair execution of the program ends with its result at the specification of the arguments as launched
    and the arguments unchanged. -/
theorem run : θ_run defs (onTc (τ := τ) (main (F := Ideal))) ⟨m, fun _ => 0, ρ⟩ fun r => ∀ c : Dev nD,
      r.2.mem ((c.tc : Thread nD τ).loc main_v5)
        = result3 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.PhaseAdd.Result

end
-- ==== Proof.lean ====
/-
  A phase embedding added to x. For x of shape 4096 x 8 x 1024, phase_one_hot of shape 4096 x 8 x 9 and emb_table of
  shape 9 x 1024, both programs compute, over the extended reals,

      out(s, b, d) = x(s, b, d) + sum over the nine phases p of phase_one_hot(s, b, p) * emb_table(p, d).

  The reference does it in two steps, a contraction over the phase axis and an addition. The kernel's program folds
  (s, b) into a row index r = 8 s + b, walks the 32768 rows in sixteen blocks of 2048 and each block in four chunks of
  512, for each chunk multiplies the 512 x 9 and 9 x 1024 matrices into a zero accumulator and adds the chunk's rows
  of x, and unfolds the rows again. Rows are independent of one another, a change of float format is the identity on
  extended reals, and a matrix product into zero is the plain sum of products: so chunk by chunk, block by block and
  through the two reshapes the kernel's result is the same sum, term for term. No law beyond reading both sides at an
  index is needed, and nothing is asked of the inputs.

  The modules: Spec (the function above, in both layouts), RefIsSpec (the reference is it), KernelChunk (one chunk),
  KernelBlock (one block: four chunks tile it), KernelArray (the sixteen blocks cover the array), Layout (the two
  reshapes), KernelResult (the kernel's program end to end). The kernel changes nothing when read over the extended
  reals in place of machine words beyond the reading itself, so that conjunct is trivial; the three programs' frames
  are the generated ones, the reference's being its run with the result dropped.
-/
import proofs.«166977_j46651934769191_2_alg».proof.Defs
import proofs.«166977_j46651934769191_2_alg».proof.Proof.Gen.Kernel
import proofs.«166977_j46651934769191_2_alg».proof.Proof.Gen.Kernel.Skeleton
import proofs.«166977_j46651934769191_2_alg».proof.Proof.Gen.Kernel.Launch
import proofs.«166977_j46651934769191_2_alg».proof.Proof.Gen.Kernel.Points
import proofs.«166977_j46651934769191_2_alg».proof.Proof.Gen.Kernel.Frame
import proofs.«166977_j46651934769191_2_alg».proof.Proof.Gen.KernelIdeal
import proofs.«166977_j46651934769191_2_alg».proof.Proof.Gen.KernelIdeal.Skeleton
import proofs.«166977_j46651934769191_2_alg».proof.Proof.Gen.KernelIdeal.Launch
import proofs.«166977_j46651934769191_2_alg».proof.Proof.Gen.KernelIdeal.Points
import proofs.«166977_j46651934769191_2_alg».proof.Proof.Gen.KernelIdeal.Frame
import proofs.«166977_j46651934769191_2_alg».proof.Proof.Gen.ReferenceIdeal
import proofs.«166977_j46651934769191_2_alg».proof.Proof.Gen.ReferenceIdeal.Run
import proofs.«166977_j46651934769191_2_alg».proof.Proof.Gen.ReferenceIdeal.Read
import proofs.«166977_j46651934769191_2_alg».proof.Proof.Gen.Pre_finite_inputs
import proofs.«166977_j46651934769191_2_alg».proof.Proof.RefIsSpec
import proofs.«166977_j46651934769191_2_alg».proof.Proof.KernelResult
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- Both programs end at the specification of arguments that agree: the kernel's by its run read end to end, the
    reference's by its two operations read at an index. -/
theorem algebraic : Cert.algebraic_KernelIdeal_ReferenceIdeal := by
  intro m ρ m' ρ' _ hagree
  refine ⟨fun c => Cert.PhaseAdd.result3
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.PhaseAdd.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.PhaseAdd.Ref.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
